-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10x4096 : Shape := ⟨3, ![4096, 10, 4096]⟩
abbrev S_ : Shape := ⟨0, ![]⟩

class Facts : Prop where
  bcast_S_S4096x10x4096 : S_.BroadcastsInDim S4096x10x4096 (![] : Fin 0 → Fin S4096x10x4096.rank)
  reducesTo_S4096x10x4096_S_d0_1_2 : S4096x10x4096.ReducesTo [0, 1, 2] S_
  h_S_ : 0 < S_.numel

variable [Facts]

def fn {F : FTy → Type} [FloatOps F] (main_arg0 : FVec F S4096x10x4096 .f32) (main_arg1 : FVec F S4096x10x4096 .f32) : IVec S_ 1 :=
  let main_v0 : FVec F S4096x10x4096 .f32 := Host.absf main_arg0
  let main_cst : FVec F S_ .f32 := constant S_ .f32 0x7F800000#32
  let main_v1 : FVec F S4096x10x4096 .f32 := broadcastInDim S4096x10x4096 ![] bcast_S_S4096x10x4096 main_cst
  let main_v2 : IVec S4096x10x4096 1 := cmpf .olt main_v0 main_v1
  let main_c : IVec S_ 1 := constantI S_ 1 1#1
  let main_v3 : IVec S_ 1 := (fun x v => Host.reduce IntOp.andi x v reducesTo_S4096x10x4096_S_d0_1_2 h_S_) main_v2 main_c
  let main_v4 : FVec F S4096x10x4096 .f32 := Host.absf main_arg1
  let main_cst_0 : FVec F S_ .f32 := constant S_ .f32 0x7F800000#32
  let main_v5 : FVec F S4096x10x4096 .f32 := broadcastInDim S4096x10x4096 ![] bcast_S_S4096x10x4096 main_cst_0
  let main_v6 : IVec S4096x10x4096 1 := cmpf .olt main_v4 main_v5
  let main_c_1 : IVec S_ 1 := constantI S_ 1 1#1
  let main_v7 : IVec S_ 1 := (fun x v => Host.reduce IntOp.andi x v reducesTo_S4096x10x4096_S_d0_1_2 h_S_) main_v6 main_c_1
  let main_v8 : IVec S_ 1 := andi main_v3 main_v7
  main_v8
-- ==== Kernel.lean ====
abbrev S4096x10x4096 : Shape := ⟨3, ![4096, 10, 4096]⟩
abbrev S40960x4096 : Shape := ⟨2, ![40960, 4096]⟩
abbrev S4096x1 : Shape := ⟨2, ![4096, 1]⟩
abbrev S640x4096 : Shape := ⟨2, ![640, 4096]⟩
abbrev S64x1 : Shape := ⟨2, ![64, 1]⟩
abbrev S640 : Shape := ⟨1, ![640]⟩
abbrev S64x10 : Shape := ⟨2, ![64, 10]⟩
abbrev S64 : Shape := ⟨1, ![64]⟩
abbrev S4096 : Shape := ⟨1, ![4096]⟩

abbrev nBuf : Space → Nat
  | .hbm => 6
  | .vmem => 6
  | .smem => 0
  | _ => 0

abbrev bufTy : (tb : Table) → Fin (tcTables nBuf tb) → BufTy
  | .hbm, ⟨0, _⟩ => ⟨S4096x10x4096, .f32⟩
  | .hbm, ⟨1, _⟩ => ⟨S4096x10x4096, .f32⟩
  | .hbm, ⟨2, _⟩ => ⟨S40960x4096, .f32⟩
  | .hbm, ⟨3, _⟩ => ⟨S40960x4096, .f32⟩
  | .hbm, ⟨4, _⟩ => ⟨S4096x1, .f32⟩
  | .hbm, ⟨5, _⟩ => ⟨S4096, .f32⟩
  | .local _ .vmem, ⟨0, _⟩ => ⟨S640x4096, .f32⟩
  | .local _ .vmem, ⟨1, _⟩ => ⟨S640x4096, .f32⟩
  | .local _ .vmem, ⟨2, _⟩ => ⟨S640x4096, .f32⟩
  | .local _ .vmem, ⟨3, _⟩ => ⟨S640x4096, .f32⟩
  | .local _ .vmem, ⟨4, _⟩ => ⟨S64x1, .f32⟩
  | .local _ .vmem, ⟨5, _⟩ => ⟨S64x1, .f32⟩
  | _, _ => ⟨S4096x10x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x10x4096_S40960x4096 : S4096x10x4096.ShapeCasts S40960x4096
  inb_S640x4096_S640x4096_0_0 : ∀ a, (![0, 0] : Fin 2 → Nat) a + S640x4096.size a ≤ S640x4096.size a
  h_S640x4096 : 0 < S640x4096.numel
  shapeCasts_S640x4096_S640x4096 : S640x4096.ShapeCasts S640x4096
  reduces_S640x4096_S640 : S640x4096.Reduces [1] S640
  shapeCasts_S640_S64x10 : S640.ShapeCasts S64x10
  reduces_S64x10_S64 : S64x10.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S4096x1_S4096 : S4096x1.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x4096.size a ≤ S40960x4096.size a
  hwx0_0 : ∀ i : grid0.Coords, EltTy.bits .f32 = 32 ∨ (Rect.block (s := S40960x4096) S640x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S40960x4096.size a
  hwx0_1 : ∀ i : grid0.Coords, EltTy.bits .f32 = 32 ∨ (Rect.block (s := S40960x4096) S640x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

abbrev win0_0 : Pipeline.Window sig grid0 :=
  Pipeline.Window.ofSpec (Memref.whole main_v0) S640x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x10x4096 : Shape := ⟨3, ![4096, 10, 4096]⟩
abbrev S4096x10x10 : Shape := ⟨3, ![4096, 10, 10]⟩
abbrev S_ : Shape := ⟨0, ![]⟩
abbrev S10 : Shape := ⟨1, ![10]⟩
abbrev S10x1 : Shape := ⟨2, ![10, 1]⟩
abbrev S10x2 : Shape := ⟨2, ![10, 2]⟩
abbrev S4096x10 : Shape := ⟨2, ![4096, 10]⟩
abbrev S4096 : Shape := ⟨1, ![4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x10x4096, .f32⟩
  | .hbm, ⟨1, _⟩ => ⟨S4096x10x4096, .f32⟩
  | .hbm, ⟨2, _⟩ => ⟨S4096x10x10, .f32⟩
  | .hbm, ⟨3, _⟩ => ⟨S_, .f32⟩
  | .hbm, ⟨4, _⟩ => ⟨S4096x10x10, .f32⟩
  | .hbm, ⟨5, _⟩ => ⟨S4096x10x10, .f32⟩
  | .hbm, ⟨6, _⟩ => ⟨S_, .f32⟩
  | .hbm, ⟨7, _⟩ => ⟨S4096x10x10, .f32⟩
  | .hbm, ⟨8, _⟩ => ⟨S4096x10x10, .f32⟩
  | .hbm, ⟨9, _⟩ => ⟨S_, .f32⟩
  | .hbm, ⟨10, _⟩ => ⟨S4096x10x10, .f32⟩
  | .hbm, ⟨11, _⟩ => ⟨S4096x10x10, .f32⟩
  | .hbm, ⟨12, _⟩ => ⟨S4096x10x10, .f32⟩
  | .hbm, ⟨13, _⟩ => ⟨S10, .i32⟩
  | .hbm, ⟨14, _⟩ => ⟨S10, .i32⟩
  | .hbm, ⟨15, _⟩ => ⟨S_, .i32⟩
  | .hbm, ⟨16, _⟩ => ⟨S10, .i32⟩
  | .hbm, ⟨17, _⟩ => ⟨S10, .i1⟩
  | .hbm, ⟨18, _⟩ => ⟨S_, .i32⟩
  | .hbm, ⟨19, _⟩ => ⟨S10, .i32⟩
  | .hbm, ⟨20, _⟩ => ⟨S10, .i32⟩
  | .hbm, ⟨21, _⟩ => ⟨S10, .i32⟩
  | .hbm, ⟨22, _⟩ => ⟨S_, .i32⟩
  | .hbm, ⟨23, _⟩ => ⟨S10, .i32⟩
  | .hbm, ⟨24, _⟩ => ⟨S10, .i1⟩
  | .hbm, ⟨25, _⟩ => ⟨S_, .i32⟩
  | .hbm, ⟨26, _⟩ => ⟨S10, .i32⟩
  | .hbm, ⟨27, _⟩ => ⟨S10, .i32⟩
  | .hbm, ⟨28, _⟩ => ⟨S10, .i32⟩
  | .hbm, ⟨29, _⟩ => ⟨S10x1, .i32⟩
  | .hbm, ⟨30, _⟩ => ⟨S10x1, .i32⟩
  | .hbm, ⟨31, _⟩ => ⟨S10x2, .i32⟩
  | .hbm, ⟨32, _⟩ => ⟨S4096x10, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | _, _ => ⟨S4096x10x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_c : Ref sig .tc := ⟨.hbm, 15, rfl⟩
abbrev main_call0_v2 : Ref sig .tc := ⟨.hbm, 16, rfl⟩
abbrev main_call0_v3 : Ref sig .tc := ⟨.hbm, 17, rfl⟩
abbrev main_call0_c_0 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_v7 : Ref sig .tc := ⟨.hbm, 23, rfl⟩
abbrev main_call0_v8 : Ref sig .tc := ⟨.hbm, 24, rfl⟩
abbrev main_call0_c_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_cst_3 : Ref sig .tc := ⟨.hbm, 35, rfl⟩
abbrev main_v10 : Ref sig .tc := ⟨.hbm, 36, rfl⟩
abbrev main_v11 : Ref sig .tc := ⟨.hbm, 37, rfl⟩

abbrev nD : Nat := 1
abbrev τ : Topo := Topo.v7x

variable {F : FTy → Type} [FloatOps F]

class Facts₀ : Prop where
  bcast_S_S4096x10x10 : S_.BroadcastsInDim S4096x10x10 (![] : Fin 0 → Fin S4096x10x10.rank)
  bcast_S_S10 : S_.BroadcastsInDim S10 (![] : Fin 0 → Fin S10.rank)
  bcast_S10_S10x1_0 : S10.BroadcastsInDim S10x1 (![0] : Fin 1 → Fin S10x1.rank)
  concatenates_S10x1_S10x1_S10x2_d1 : Shape.Concatenates [S10x1, S10x1] S10x2 1
  reducesTo_S4096x10_S4096_d1 : S4096x10.ReducesTo [1] S4096
  h_S_ : 0 < S_.numel
  bcast_S_S4096 : S_.BroadcastsInDim S4096 (![] : Fin 0 → Fin S4096.rank)
  dot_S4096x10x4096_S4096x10x4096_S4096x10x10_2_2_1_1_0_0_wf : DotDims.WF S4096x10x4096 S4096x10x4096 S4096x10x10 [2] [2] [1] [1] [0] [0]
  gather_S4096x10x10_S10x2_S4096x10_0_12_n_n_12_1_409611_wf : GatherDims.WF S4096x10x10 S10x2 S4096x10 [0] [1, 2] [] [1, 2] [] 1 ![4096, 1, 1]

variable [Facts₀]

def dot_S4096x10x4096_S4096x10x4096_S4096x10x10_2_2_1_1_0_0 : DotDims S4096x10x4096 S4096x10x4096 S4096x10x10 where
  lhsContracting := [2]
  rhsContracting := [2]
  lhsNonContracting := [1]
  rhsNonContracting := [1]
  lhsBatch := [0]
  rhsBatch := [0]
  wf := dot_S4096x10x4096_S4096x10x4096_S4096x10x10_2_2_1_1_0_0_wf
def gather_S4096x10x10_S10x2_S4096x10_0_12_n_n_12_1_409611 : GatherDims S4096x10x10 S10x2 S4096x10 where
  offsetDims := [0]
  collapsedSliceDims := [1, 2]
  operandBatchingDims := []
  startIndicesBatchingDims := []
  startIndexMap := [1, 2]
  indexVectorDim := 1
  sliceSizes := ![4096, 1, 1]
  wf := gather_S4096x10x10_S10x2_S4096x10_0_12_n_n_12_1_409611_wf

class Facts : Prop extends Facts₀ where

variable [Facts]
-- ==== Proof.Spec.lean ====
/-
  The quantity both programs compute, stated once over the extended reals.

  For descriptors r, c : [4096, 10, 4096] the result at batch element b is the mean over the ten sequence positions l
  of the distance  sqrt (max (2 - 2 * <r[b,l,:], c[b,l,:]>, 0)),  the mean taken as the sum divided by ten.
  The reference reaches it through the full [b, l, m] matrix of inner products and its diagonal; the kernel through the
  per-row inner product alone. The diagonal entry (l, l) of the matrix IS the per-row inner product, so the two are the
  same function and no algebraic law beyond that identification is needed: in particular nothing here asks the inputs to
  be finite. The literals 2.0 and 10.0 stay as their f32 words (the same words on both sides); only the zero word is read.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The f32 word of 2.0 read at the extended reals. -/
abbrev two : EReal := Ideal.ofBits .f32 0x40000000#32
/-- The f32 word of 10.0 read at the extended reals. -/
abbrev ten : EReal := Ideal.ofBits .f32 0x41200000#32

/-- The distance between row (b, l) of the first array and row (b, l) of the second:
    sqrt (max (2 - 2 * sum over d of x0[b,l,d] * x1[b,l,d], 0)). -/
def rowDist (x0 x1 : (⟨3, ![4096, 10, 4096]⟩ : Shape).Idx → EReal) (b : Fin 4096) (l : Fin 10) : EReal :=
  Ideal.sqrt (max (two - two * ∑ d : Fin 4096, x0 (ix3 b l d) * x1 (ix3 b l d)) 0)

/-- The mean over the ten sequence positions of the row distances of batch element b: their sum divided by ten. -/
def meanDistAt (x0 x1 : (⟨3, ![4096, 10, 4096]⟩ : Shape).Idx → EReal) (b : Fin 4096) : EReal :=
  Ideal.div (∑ l : Fin 10, rowDist x0 x1 b l) ten

/-- The result array [4096]. -/
def meanDist (x0 x1 : (⟨3, ![4096, 10, 4096]⟩ : Shape).Idx → EReal) : (⟨1, ![4096]⟩ : Shape).Idx → EReal :=
  fun i => meanDistAt x0 x1 ⟨(i 0).val, (i 0).isLt⟩

/-- The same values as a column [4096, 1], the layout the kernel writes before the final reshape. -/
def meanDistCol (x0 x1 : (⟨3, ![4096, 10, 4096]⟩ : Shape).Idx → EReal) : (⟨2, ![4096, 1]⟩ : Shape).Idx → EReal :=
  fun i => meanDistAt x0 x1 ⟨(i 0).val, (i 0).isLt⟩

end Cert.PairDist

end
-- ==== Proof.RefDiag.lean ====
/-
  The reference's jnp.diagonal, read at an index.

  jnp.diagonal of the [4096, 10, 10] matrix of distances is lowered to a gather whose start indices are the [10, 2]
  integer array with row l = (wrap l, wrap l), where wrap l = (l < 0 ? l + 10 : l) is numpy's negative-index
  normalisation applied to an iota. For 0 ≤ l < 10 the wrap is the identity, the clamp of the gather does nothing, and
  element (b, l) of the gather is element (b, l, l) of the operand.
-/
import proofs.«150877_j36000415875563_2_alg».proof.Proof.Gen.ReferenceIdeal.Read
import Idealize.ShloMosaic.Lib.Pipeline.Value
import Idealize.ShloMosaic.Lib.ValueIdx

noncomputable section

namespace Cert.ReferenceIdeal.Diag

open Cert.ReferenceIdeal Cert.ReferenceIdeal.Gen Cert.ReferenceIdeal.Read Idealize.ShloMosaic Idealize.ShloMosaic.ValueIdx

variable {F : FTy → Type} [FloatOps F]

/-- numpy's index normalisation on an in-range index: for 0 ≤ l < 10 the signed test l < 0 fails and l is kept. -/
theorem wrap_eq : ∀ l : Fin 10, Scalar.select (IntOp.cmpi .slt (BitVec.ofNat 32 l.val) 0#32)
    (IntOp.addi (BitVec.ofNat 32 l.val) 10#32) (BitVec.ofNat 32 l.val) = BitVec.ofNat 32 l.val := by
  decide

/-- An in-range index read back as a signed integer and clamped into [0, 9] is itself. -/
theorem clamp_eq : ∀ l : Fin 10, min (BitVec.ofNat 32 l.val).toInt.toNat (10 - 1) = l.val := by
  decide

/-- The first normalised iota at l is l. -/
theorem wrapped0_apply (l : Fin 10) : val_main_call0_v6 (F := F) (ix1 l) = BitVec.ofNat 32 l.val := by
  rw [val_main_call0_v6_apply, val_main_call0_v3_apply, val_main_call0_v5_apply, val_main_call0_v0_apply,
    val_main_call0_v2_apply, val_main_call0_v4_apply, val_main_call0_c_apply, val_main_call0_c_0_apply]
  exact wrap_eq l

/-- The second normalised iota at l is l. -/
theorem wrapped1_apply (l : Fin 10) : val_main_call0_v11 (F := F) (ix1 l) = BitVec.ofNat 32 l.val := by
  rw [val_main_call0_v11_apply, val_main_call0_v8_apply, val_main_call0_v10_apply, val_main_call0_v1_apply,
    val_main_call0_v7_apply, val_main_call0_v9_apply, val_main_call0_c_1_apply, val_main_call0_c_2_apply]
  exact wrap_eq l

/-- Column 0 of the start indices at row l is l. -/
theorem starts_col0 (l : Fin 10) : val_main_call0_v14 (F := F) (ix2 l (0 : Fin 2)) = BitVec.ofNat 32 l.val := by
  unfold val_main_call0_v14
  refine (concatenate_pair_apply_left (t := S10x2) (s₁ := S10x1) (s₂ := S10x1) (1 : Fin 2) (val_main_call0_v12 (F := F))
    (val_main_call0_v13 (F := F)) concatenates_S10x1_S10x1_S10x2_d1 (ix2 l (0 : Fin 2)) rfl
    (ix2 l (0 : Fin 1)) (fun b => by match b with | ⟨0, _⟩ => rfl | ⟨1, _⟩ => rfl)).trans ?_
  rw [val_main_call0_v12_apply]
  exact wrapped0_apply l

/-- Column 1 of the start indices at row l is l. -/
theorem starts_col1 (l : Fin 10) : val_main_call0_v14 (F := F) (ix2 l (1 : Fin 2)) = BitVec.ofNat 32 l.val := by
  unfold val_main_call0_v14
  refine (concatenate_pair_apply_right (t := S10x2) (s₁ := S10x1) (s₂ := S10x1) (1 : Fin 2) (val_main_call0_v12 (F := F))
    (val_main_call0_v13 (F := F)) concatenates_S10x1_S10x1_S10x2_d1 (ix2 l (1 : Fin 2)) rfl rfl
    (ix2 l (0 : Fin 1)) (fun b hb => by
      match b with
      | ⟨0, _⟩ => rfl
      | ⟨1, _⟩ => exact absurd rfl hb) rfl).trans ?_
  rw [val_main_call0_v13_apply]
  exact wrapped1_apply l

/-- The gather's dimension numbers: offset axis 0 of the result, operand axes 1 and 2 collapsed and indexed. -/
abbrev D : GatherDims S4096x10x10 S10x2 S4096x10 := gather_S4096x10x10_S10x2_S4096x10_0_12_n_n_12_1_409611

/-- THE DIAGONAL: element (b, l) of the gather is element (b, l, l) of its operand. -/
theorem diagonal_apply {α : Type} (x : S4096x10x10.Idx → α) (b : Fin 4096) (l : Fin 10) :
    Host.gather D x (val_main_call0_v14 (F := F)) (ix2 b l)
      = x (ix3 b l l) := by
  unfold Host.gather
  refine congrArg x (funext fun a => Fin.ext ?_)
  have hb : ∀ a' : Fin 3, D.batchCoord (ix2 b l) a' = 0 := fun a' =>
    GatherDims.batchCoord_eq_zero _ _ _ List.not_mem_nil
  match a with
  | ⟨0, _⟩ =>
    -- the batch axis: not a start-index axis, the one offset axis of the result
    show D.start (ix2 b l) (val_main_call0_v14 (F := F)) 0 + D.batchCoord (ix2 b l) 0 + D.offCoord (ix2 b l) 0 = b.val
    rw [hb]
    unfold GatherDims.start GatherDims.offCoord
    rw [dif_neg (by decide), dif_pos (by decide)]
    simp only [Nat.zero_add]
    rfl
  | ⟨1, _⟩ =>
    -- the row axis: collapsed, started at column 0 of the start indices
    show D.start (ix2 b l) (val_main_call0_v14 (F := F)) 1 + D.batchCoord (ix2 b l) 1 + D.offCoord (ix2 b l) 1 = l.val
    rw [hb, GatherDims.offCoord_eq_zero _ _ _ (fun h => ((GatherDims.mem_sKept _ _).mp h).1 (by decide))]
    unfold GatherDims.start
    rw [dif_pos (show (1 : Fin 3) ∈ D.startIndexMap by decide)]
    have hsi : D.siIdx (ix2 b l) ⟨List.idxOf (1 : Fin 3) D.startIndexMap, List.idxOf_lt_length_iff.2 (by decide)⟩
        = ix2 l (0 : Fin 2) := by
      funext b'; refine Fin.ext ?_
      match b' with
      | ⟨0, _⟩ => rfl
      | ⟨1, _⟩ => rfl
    rw [hsi, starts_col0]
    exact clamp_eq l
  | ⟨2, _⟩ =>
    -- the column axis: collapsed, started at column 1 of the start indices
    show D.start (ix2 b l) (val_main_call0_v14 (F := F)) 2 + D.batchCoord (ix2 b l) 2 + D.offCoord (ix2 b l) 2 = l.val
    rw [hb, GatherDims.offCoord_eq_zero _ _ _ (fun h => ((GatherDims.mem_sKept _ _).mp h).1 (by decide))]
    unfold GatherDims.start
    rw [dif_pos (show (2 : Fin 3) ∈ D.startIndexMap by decide)]
    have hsi : D.siIdx (ix2 b l) ⟨List.idxOf (2 : Fin 3) D.startIndexMap, List.idxOf_lt_length_iff.2 (by decide)⟩
        = ix2 l (1 : Fin 2) := by
      funext b'; refine Fin.ext ?_
      match b' with
      | ⟨0, _⟩ => rfl
      | ⟨1, _⟩ => rfl
    rw [hsi, starts_col1]
    exact clamp_eq l

end Cert.ReferenceIdeal.Diag

end
-- ==== Proof.RefValue.lean ====
/-
  The reference computes the mean row distance.

  Entry (b, l, m) of the reference's distance matrix is sqrt (max (2 - 2 * <x0[b,l,:], x1[b,m,:]>, 0)); its diagonal
  (l = m) is the row distance of the specification; the sum over l of the diagonal, from the initial value 0, divided by
  ten is the mean. The inner product is the host's dot_general contracted over the last axis, a plain sum at the
  extended reals.
-/
import proofs.«150877_j36000415875563_2_alg».proof.Proof.Spec
import proofs.«150877_j36000415875563_2_alg».proof.Proof.RefDiag

noncomputable section

namespace Cert.ReferenceIdeal.RefValue

open Cert.ReferenceIdeal Cert.ReferenceIdeal.Gen Cert.ReferenceIdeal.Read Idealize.ShloMosaic Idealize.ShloMosaic.ValueIdx
open Cert.PairDist

/-- The left factor of term k of matrix entry (b, l, m) is x0[b, l, k]. -/
theorem left_index (b : Fin 4096) (l m : Fin 10) (k : Fin 4096) : lidx_main_v0 (ix3 b l m) k = ix3 b l k :=
  funext fun a => by match a with | ⟨0, _⟩ => rfl | ⟨1, _⟩ => rfl | ⟨2, _⟩ => rfl

/-- The right factor of term k of matrix entry (b, l, m) is x1[b, m, k]. -/
theorem right_index (b : Fin 4096) (l m : Fin 10) (k : Fin 4096) : ridx_main_v0 (ix3 b l m) k = ix3 b m k :=
  funext fun a => by match a with | ⟨0, _⟩ => rfl | ⟨1, _⟩ => rfl | ⟨2, _⟩ => rfl

/-- Entry (b, l, m) of the distance matrix. -/
theorem matrix_apply (x0 x1 : (⟨S4096x10x4096, .f32⟩ : BufTy).Contents (Elt Ideal)) (b : Fin 4096) (l m : Fin 10) :
    val_main_v7 (F := Ideal) x0 x1 (ix3 b l m)
      = Ideal.sqrt (max (two - two * ∑ d : Fin 4096, x0 (ix3 b l d) * x1 (ix3 b m d)) 0) := by
  rw [val_main_v7_apply, val_main_v6_apply, val_main_v4_apply, val_main_v5_apply, val_main_v3_apply, val_main_v2_apply,
    val_main_v1_apply, val_main_v0_apply, val_main_cst_apply, val_main_cst_0_apply, val_main_cst_1_apply]
  simp only [Ideal.hostUnary_sqrt_def, Ideal.maximumf_def, Ideal.subf_def, Ideal.mulf_def, Ideal.ofBits_def,
    Ideal.ofBits_zero_f32, left_index, right_index]

/-- Row k of the summed array at batch element b is entry (b, k). -/
theorem summand_index (b : Fin 4096) (k : Fin 10) : idx_main_v9 (ix1 b) k = ix2 b k :=
  funext fun a => by match a with | ⟨0, _⟩ => rfl | ⟨1, _⟩ => rfl

/-- THE REFERENCE'S RESULT is the mean row distance, index by index. -/
theorem result_eq (x0 x1 : (⟨S4096x10x4096, .f32⟩ : BufTy).Contents (Elt Ideal)) :
    val_main_v11 (F := Ideal) x0 x1 = meanDist x0 x1 := by
  funext i
  obtain ⟨b, rfl⟩ : ∃ b : Fin 4096, i = ix1 b := ⟨i 0, eq_ix1 i⟩
  rw [val_main_v11_apply, val_main_v9_apply, val_main_v10_apply, val_main_cst_3_apply, val_main_cst_2_apply]
  simp only [Ideal.hostDivf_def, Ideal.ofBits_def, Ideal.ofBits_zero_f32, zero_add]
  unfold meanDist meanDistAt
  refine congrArg (fun s => Ideal.div s ten) (Finset.sum_congr rfl fun l _ => ?_)
  rw [summand_index]
  unfold val_main_v8
  rw [Diag.diagonal_apply, matrix_apply]
  rfl

end Cert.ReferenceIdeal.RefValue

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.Payload.lean ====
/-
  What the kernel body stores, read at an index.

  The body loads a block of 640 rows of each input (64 batch elements of ten rows each, the rows of batch element p
  being the block's rows 10p, …, 10p + 9), multiplies them entry by entry, sums each row over its 4096 lanes, forms
  sqrt (max (2 - 2 * sum, 0)) per row, views the 640 values as [64, 10], sums each group of ten, and divides by ten.
  So entry (p, 0) of the stored [64, 1] column is the mean over l of the row distances of the block's rows 10p + l.
-/
import proofs.«150877_j36000415875563_2_alg».proof.Proof.Gen.KernelIdeal.Skeleton
import proofs.«150877_j36000415875563_2_alg».proof.Proof.Spec
import proofs.«150877_j36000415875563_2_alg».proof.Proof.LibLayout
import proofs.«150877_j36000415875563_2_alg».proof.Proof.LibRows

noncomputable section

namespace Cert.KernelIdeal.Payload

open Cert.KernelIdeal Cert.KernelIdeal.Gen Idealize.ShloMosaic Idealize.ShloMosaic.ValueIdx
open Cert.PairDist

/-- Row l of batch element p inside a block of 64 batch elements: the block's row 10p + l. -/
def blockRow (p : Fin 64) (l : Fin 10) : Fin 640 := ⟨p.val * 10 + l.val, by omega⟩

/-- Entry (p, 0) of the stored column: the mean over l of the distances of the block's rows 10p + l. -/
theorem payload_apply (x0 x1 : Vec Ideal S640x4096 .f32) (p : Fin 64) (q : Fin 1) :
    k0_pay1 (F := Ideal) x0 x1 (ix2 p q)
      = Ideal.div (∑ l : Fin 10, Ideal.sqrt (max (two - two * ∑ d : Fin 4096,
          x0 (ix2 (blockRow p l) d) * x1 (ix2 (blockRow p l) d)) 0)) ten := by
  unfold k0_pay1
  dsimp only
  refine congrArg (fun s => Ideal.div s ten) ?_
  refine (Cert.LibLayout.shapeCast_a_a1_apply _ _ p q).trans ?_
  refine (Cert.LibRows.rowSum_apply _ _ _ _ _ p).trans ?_
  refine Finset.sum_congr rfl fun l _ => ?_
  refine (Cert.LibRows.shapeCast_n_ab_apply _ _ p l (blockRow p l) rfl).trans ?_
  show Ideal.sqrt (max (two - two * _) (Ideal.ofBits .f32 0x00000000#32)) = _
  rw [Ideal.ofBits_zero_f32]
  refine congrArg (fun s => Ideal.sqrt (max (two - two * s) 0)) ?_
  refine (Cert.LibRows.rowSum_apply _ _ _ _ _ (blockRow p l)).trans ?_
  refine Finset.sum_congr rfl fun d _ => ?_
  show shapeCast S640x4096 x0 _ (ix2 (blockRow p l) d) * shapeCast S640x4096 x1 _ (ix2 (blockRow p l) d) = _
  rw [shapeCast_self, shapeCast_self]

end Cert.KernelIdeal.Payload

end
-- ==== Proof.KernelValue.lean ====
/-
  The kernel's result array, as one function of the argument arrays.

  Before the launch each [4096, 10, 4096] argument is viewed as [40960, 4096]: flat row 10b + l is row (b, l). Grid
  point t reads rows 640t … 640t + 639 of both views (batch elements 64t … 64t + 63) and writes rows 64t … 64t + 63 of the
  [4096, 1] output, entry (64t + p, 0) being the mean over l of the distances of rows (64t + p, l). The 64 points' output
  blocks tile the output, so after the launch it holds the mean row distance of every batch element, as a column; the
  final reshape to [4096] reads that column.
-/
import proofs.«150877_j36000415875563_2_alg».proof.Proof.Gen.KernelIdeal.Frame
import proofs.«150877_j36000415875563_2_alg».proof.Proof.Payload
import proofs.«150877_j36000415875563_2_alg».proof.Proof.Spec
import proofs.«150877_j36000415875563_2_alg».proof.Proof.LibRows
import Idealize.ShloMosaic.Lib.Pipeline.Value
import Idealize.ShloMosaic.Lib.StableHlo.Run

noncomputable section

namespace Cert.KernelIdeal.KernelValue

open Cert.KernelIdeal Cert.KernelIdeal.Gen Cert.KernelIdeal.Payload
open Idealize.ShloMosaic Idealize.ShloMosaic.TcCoe Idealize.ShloMosaic.ValueIdx Idealize.SL.Sem Idealize.ShloMosaic.StableHlo
open Idealize.ShloMosaic.Pipeline (Dat)
open Cert.PairDist

variable (m : (ℓ : Loc nD τ sig) → Buf (Elt Ideal) ℓ) (ρ : Dev nD → PrngReg)

/-! ## The arrays the launch finds -/

/-- The first operand of the launch is the first argument viewed as [40960, 4096]. -/
theorem V_main_v0 (c : Dev nD) : (V m c main_v0 : S40960x4096.Idx → EReal)
    = shapeCast S40960x4096 (m ((c : Thread nD τ).loc main_arg0)) shapeCasts_S4096x10x4096_S40960x4096 := by
  show StableHlo.after hostOps0 (fun b => m (c, b)) (Proc.devRef .tc main_v0) = _
  after_results
  rfl

/-- The second operand of the launch is the second argument viewed as [40960, 4096]. -/
theorem V_main_v1 (c : Dev nD) : (V m c main_v1 : S40960x4096.Idx → EReal)
    = shapeCast S40960x4096 (m ((c : Thread nD τ).loc main_arg1)) shapeCasts_S4096x10x4096_S40960x4096 := by
  show StableHlo.after hostOps0 (fun b => m (c, b)) (Proc.devRef .tc main_v1) = _
  after_results
  rfl

/-! ## The blocks a grid point reads and writes -/

/-- The printed index maps, decided once over the 64 grid points: point t reads block row t of both operands and writes
    block row t of the output; no window moves along its second axis. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (r, d) of the first operand's block at point t is the first argument at (b, l, d), when flat row
    640t + r is row (b, l). -/
theorem first_block_apply (c : Dev nD) (t : Fin cfg0.N) (r : Fin 640) (d : Fin 4096) (b : Fin 4096) (l : Fin 10)
    (hb : t.val * 640 + r.val = b.val * 10 + l.val) :
    iblk m c 0 t (ix2 r d) = m ((c : Thread nD τ).loc main_arg0) (ix3 b l d) := by
  show V m c main_v0 (((cfg0.win 0).blk t).view.emb (ix2 r d)) = _
  obtain ⟨e0, e1, -, -, -, -⟩ := block_index t
  have hemb : ((cfg0.win 0).blk t).view.emb (ix2 r d) = ix2 (⟨b.val * 10 + l.val, by have := b.isLt; have := l.isLt; omega⟩ : Fin 40960) d := by
    funext a; apply Fin.ext
    match a with
    | ⟨0, _⟩ => show win0_0.index t (0 : Fin 2) * 640 + 1 * r.val = b.val * 10 + l.val; omega
    | ⟨1, _⟩ => show win0_0.index t (1 : Fin 2) * 4096 + 1 * d.val = d.val; omega
  rw [hemb, V_main_v0]
  exact Cert.LibRows.shapeCast_abc_nc_apply _ _ b l d _ rfl

/-- The same for the second operand. -/
theorem second_block_apply (c : Dev nD) (t : Fin cfg0.N) (r : Fin 640) (d : Fin 4096) (b : Fin 4096) (l : Fin 10)
    (hb : t.val * 640 + r.val = b.val * 10 + l.val) :
    iblk m c 1 t (ix2 r d) = m ((c : Thread nD τ).loc main_arg1) (ix3 b l d) := by
  show V m c main_v1 (((cfg0.win 1).blk t).view.emb (ix2 r d)) = _
  obtain ⟨-, -, e0, e1, -, -⟩ := block_index t
  have hemb : ((cfg0.win 1).blk t).view.emb (ix2 r d) = ix2 (⟨b.val * 10 + l.val, by have := b.isLt; have := l.isLt; omega⟩ : Fin 40960) d := by
    funext a; apply Fin.ext
    match a with
    | ⟨0, _⟩ => show win0_1.index t (0 : Fin 2) * 640 + 1 * r.val = b.val * 10 + l.val; omega
    | ⟨1, _⟩ => show win0_1.index t (1 : Fin 2) * 4096 + 1 * d.val = d.val; omega
  rw [hemb, V_main_v1]
  exact Cert.LibRows.shapeCast_abc_nc_apply _ _ b l d _ rfl

/-- What the body computes at point t, entry (p, 0): the mean row distance of batch element 64t + p. -/
theorem point_value (c : Dev nD) (t : Fin cfg0.N) (p : Fin 64) (q : Fin 1) (b : Fin 4096) (hb : b.val = t.val * 64 + p.val) :
    k0_pay1 (F := Ideal) (iblk m c 0 t) (iblk m c 1 t) (ix2 p q)
      = meanDistAt (m ((c : Thread nD τ).loc main_arg0)) (m ((c : Thread nD τ).loc main_arg1)) b := by
  rw [payload_apply]
  unfold meanDistAt rowDist
  refine congrArg (fun s => Ideal.div s ten) (Finset.sum_congr rfl fun l _ => ?_)
  refine congrArg (fun s => Ideal.sqrt (max (two - two * s) 0)) (Finset.sum_congr rfl fun d _ => ?_)
  have hrow : t.val * 640 + (blockRow p l).val = b.val * 10 + l.val := by
    show t.val * 640 + (p.val * 10 + l.val) = b.val * 10 + l.val
    omega
  rw [first_block_apply m c t (blockRow p l) d b l hrow, second_block_apply m c t (blockRow p l) d b l hrow]

/-! ## From the blocks to the array -/

theorem zero_offsets : (![0, 0] : Fin 2 → Nat) = fun _ => 0 := funext fun a => by fin_cases a <;> rfl

/-- Two [64, 1] blocks that agree at every (p, q) are equal. -/
theorem block_ext {f g : (⟨2, ![64, 1]⟩ : Shape).Idx → EReal} (h : ∀ (p : Fin 64) (q : Fin 1), f (ix2 p q) = g (ix2 p q)) :
    f = g :=
  funext fun j => by rw [eq_ix2 j]; exact h _ _

/-- WHAT POINT t WRITES BACK is its block of the column of mean row distances of the argument arrays. -/
theorem written_block (c : Dev nD) (t : Fin cfg0.N) :
    (dats m 0 c).flushed 2 t = ((cfg0.win 2).blk t).view.read (Elt Ideal)
      (meanDistCol (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero_offsets]
  simp only [View.ld_unit_zero (S := S640x4096) zero_offsets]
  refine block_ext fun p q => ?_
  show k0_pay1 (F := Ideal) (iblk m c 0 t) (iblk m c 1 t) (ix2 p q)
    = meanDistCol (m ((c : Thread nD τ).loc main_arg0)) (m ((c : Thread nD τ).loc main_arg1)) (((cfg0.win 2).blk t).view.emb (ix2 p q))
  obtain ⟨-, -, -, -, e0, -⟩ := block_index t
  unfold meanDistCol
  refine point_value m c t p q _ ?_
  show win0_2.index t (0 : Fin 2) * 64 + 1 * p.val = t.val * 64 + p.val
  omega

/-- An index of the output column is in point t's block iff each coordinate is in the block's range on its axis. -/
theorem mem_block (t : Fin cfg0.N) (i : S4096x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v2).slice (win0_2.rect t)).set ↔ _
  rw [View.set_slice_whole, Rect.mem_set_unit]
  exact Iff.rfl

/-- Every row of the output column is written by some point: row i by point i / 64. -/
theorem covered (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 64 := N_0
  refine ⟨⟨(i 0).val / 64, by rw [hN]; omega⟩, flush0_2 _, ?_⟩
  rw [mem_block]
  obtain ⟨-, -, -, -, e0, e1⟩ := block_index ⟨(i 0).val / 64, by rw [hN]; omega⟩
  intro a
  match a with
  | ⟨0, _⟩ =>
    show win0_2.index _ (0 : Fin 2) * 64 ≤ (i 0).val ∧ (i 0).val < win0_2.index _ (0 : Fin 2) * 64 + 64
    rw [e0]; show (i 0).val / 64 * 64 ≤ (i 0).val ∧ (i 0).val < (i 0).val / 64 * 64 + 64; omega
  | ⟨1, _⟩ =>
    show win0_2.index _ (1 : Fin 2) * 1 ≤ (i 1).val ∧ (i 1).val < win0_2.index _ (1 : Fin 2) * 1 + 1
    rw [e1]; omega

/-- THE OUTPUT ARRAY after the launch is the column of mean row distances. -/
theorem column_final (c : Dev nD) : (dats m 0 c).arrAt 2 cfg0.N
    = meanDistCol (m ((c : Thread nD τ).loc main_arg0)) (m ((c : Thread nD τ).loc main_arg1)) :=
  (dats m 0 c).arrAt_eq_of_cover 2 _ (fun t _ => written_block m c t) covered

/-! ## The result after the final reshape -/

/-- THE PROGRAM'S RESULT: the output column viewed as [4096] is the array of mean row distances. -/
theorem result_value (c : Dev nD) :
    Pipeline.afterTail₀ cfgs (dats m) 0 (V0 m) [hostOps1] c main_v3
      = meanDist (m ((c : Thread nD τ).loc main_arg0)) (m ((c : Thread nD τ).loc main_arg1)) := by
  unfold Pipeline.afterTail₀
  show StableHlo.after hostOps1 _ (Proc.devRef .tc main_v3) = _
  after_results
  funext i
  obtain ⟨b, rfl⟩ : ∃ b : Fin 4096, i = ix1 b := ⟨i 0, eq_ix1 i⟩
  show shapeCast S4096 (Pipeline.withArrays spec0 c (V0 m c) (fun w => (dats m 0 c).arrAt w cfg0.N)
    (Proc.devRef .tc (Pipeline.arrRef spec0 2))) shapeCasts_S4096x1_S4096 (ix1 b) = _
  rw [(Pipeline.withArrays_arr spec0 launch0.win.arr_inj c _ _ 2).trans (column_final m c),
    Cert.LibRows.shapeCast_a1_a_apply]
  rfl

/-! ## The run, read -/

/-- Every weakly fair execution of the program terminates with its result at the array of mean row distances of the
    arguments, and the arguments unchanged. -/
theorem run : θ_run defs (onTc (τ := τ) (main (F := Ideal))) ⟨m, fun _ => 0, ρ⟩ fun r => ∀ c : Dev nD,
      r.2.mem ((c.tc : Thread nD τ).loc main_v3)
        = meanDist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/-
  Mean diagonal distance of two batches of descriptor sequences: the kernel against its reference.

  For r, c : [4096, 10, 4096] both programs return, for each batch element b, the mean over the ten positions l of
      sqrt (max (2 - 2 * <r[b,l,:], c[b,l,:]>, 0)).
  The reference forms, per batch element, the whole 10 × 10 matrix of inner products <r[b,l,:], c[b,m,:]>, maps it to
  distances, takes the diagonal and averages it. The kernel never forms the off-diagonal entries: it views each argument
  as 40960 rows of 4096 lanes, and for each block of 640 rows (64 batch elements) multiplies the two blocks entry by
  entry, sums each row over its lanes, maps the 640 sums to distances, and averages each group of ten.
  At the extended reals the two agree index by index: the diagonal entry (l, l) of the reference's matrix is the kernel's
  row sum for row (b, l) — the same 4096 products added up — and everything after it (the doubling, the subtraction from
  2, the clamp at 0, the square root, the sum of ten and the division by ten) is the same operation on both sides with
  the same constants. No law of arithmetic that could fail at an infinity is used, so finiteness of the inputs is never
  needed for the values; the precondition is only carried.

  The pieces: Spec (the common function), RefDiag (the reference's diagonal gather at an index), RefValue (the
  reference's result is the common function), Payload (what the kernel body stores, at an index), KernelValue (the
  kernel's blocks assembled into the result array), and here the five claims.
-/
import proofs.«150877_j36000415875563_2_alg».proof.Defs
import proofs.«150877_j36000415875563_2_alg».proof.Proof.Gen.Kernel
import proofs.«150877_j36000415875563_2_alg».proof.Proof.Gen.Kernel.Frame
import proofs.«150877_j36000415875563_2_alg».proof.Proof.Gen.KernelIdeal
import proofs.«150877_j36000415875563_2_alg».proof.Proof.Gen.KernelIdeal.Frame
import proofs.«150877_j36000415875563_2_alg».proof.Proof.Gen.ReferenceIdeal
import proofs.«150877_j36000415875563_2_alg».proof.Proof.Gen.ReferenceIdeal.Run
import proofs.«150877_j36000415875563_2_alg».proof.Proof.Gen.ReferenceIdeal.Read
import proofs.«150877_j36000415875563_2_alg».proof.Proof.Gen.Pre_finite_inputs
import proofs.«150877_j36000415875563_2_alg».proof.Proof.Spec
import proofs.«150877_j36000415875563_2_alg».proof.Proof.RefValue
import proofs.«150877_j36000415875563_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the array of mean row distances. -/
theorem algebraic : Cert.algebraic_KernelIdeal_ReferenceIdeal := by
  intro m ρ m' ρ' _ hagree
  refine ⟨fun c => Cert.PairDist.meanDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v11_eq _ _)).trans ?_
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
